-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128 : Shape := ⟨1, ![128]⟩
abbrev S128x128 : Shape := ⟨2, ![128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 74
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S50000, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128 : Shape := ⟨1, ![128]⟩
abbrev S128x128 : Shape := ⟨2, ![128, 128]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S1x800000 : Shape := ⟨2, ![1, 800000]⟩
abbrev S850000 : Shape := ⟨1, ![850000]⟩
abbrev S850000x1 : Shape := ⟨2, ![850000, 1]⟩
abbrev S850000x128 : Shape := ⟨2, ![850000, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S50000, .f32⟩
  | .hbm, ⟨11, _⟩ => ⟨S50000x1, .f32⟩
  | .hbm, ⟨12, _⟩ => ⟨S_, .f32⟩
  | .hbm, ⟨13, _⟩ => ⟨S50000x1, .f32⟩
  | .hbm, ⟨14, _⟩ => ⟨S50000x1, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S50000, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000, .i32⟩
  | .hbm, ⟨40, _⟩ => ⟨S1x800000, .i32⟩
  | .hbm, ⟨41, _⟩ => ⟨S800000, .i32⟩
  | .hbm, ⟨42, _⟩ => ⟨S850000, .i32⟩
  | .hbm, ⟨43, _⟩ => ⟨S1x800000, .i32⟩
  | .hbm, ⟨44, _⟩ => ⟨S800000, .i32⟩
  | .hbm, ⟨45, _⟩ => ⟨S850000, .i32⟩
  | .hbm, ⟨46, _⟩ => ⟨S_, .f32⟩
  | .hbm, ⟨47, _⟩ => ⟨S50000, .f32⟩
  | .hbm, ⟨48, _⟩ => ⟨S850000, .f32⟩
  | .hbm, ⟨49, _⟩ => ⟨S_, .f32⟩
  | .hbm, ⟨50, _⟩ => ⟨S50000, .f32⟩
  | .hbm, ⟨51, _⟩ => ⟨S850000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .i1⟩
  | .hbm, ⟨56, _⟩ => ⟨S50000, .f32⟩
  | .hbm, ⟨57, _⟩ => ⟨S_, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000, .f32⟩
  | .hbm, ⟨70, _⟩ => ⟨S850000, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000, .f32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .f32⟩
  | .hbm, ⟨90, _⟩ => ⟨S850000x1, .f32⟩
  | .hbm, ⟨91, _⟩ => ⟨S850000x128, .f32⟩
  | .hbm, ⟨92, _⟩ => ⟨S850000x128, .f32⟩
  | .hbm, ⟨93, _⟩ => ⟨S_, .f32⟩
  | .hbm, ⟨94, _⟩ => ⟨S50000x128, .f32⟩
  | .hbm, ⟨95, _⟩ => ⟨S850000x1, .i32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .i1⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_v40 : Ref sig .tc := ⟨.hbm, 60, rfl⟩
abbrev main_c : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel program's run with every buffer named at the end: every weakly fair execution terminates and
  each buffer of a TensorCore that is not a scoped scratch ends at the contents obtained by folding the program's
  segments over the launch memory — host operations applied to the contents before them, a kernel region's arrays at
  what its ten write-backs leave. The launch theorem for a program of several regions is applied to the program's
  segments; the last thread state holds every such buffer at the fold's last contents, and is read against the final
  state.
-/
import proofs.«119433_j3435973837210_1_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and every unscoped buffer ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer is one of those: it ends at what the second region's write-backs leave in its output array. -/
theorem result_eq (c : Dev nD) :
    W6 m ρ c (Proc.devRef .tc main_v50) = (dat1 (V5 m ρ) c).arrAt 3 cfg1.N := W6_arr m ρ c 3

end Cert.Gcn.Run

end
-- ==== Proof.Host.lean ====
/-
  The host operations of the idealized kernel program around its two kernel regions, read as values.

  Before the first region four vectors of length 128 are laid out as one-row matrices. Between the regions the graph
  aggregation runs: the self-loops are appended to the edge list and to the edge weights, the weighted in-degrees are
  summed per target, their reciprocal square roots (zero where the degree is not positive) give each edge its
  normalisation, the rows of the first dense layer are picked along the edge list, scaled, and summed per target. That
  chain is the same composition of operations the reference program applies to its own first dense layer; it is named
  once, as a function `agg` of the layer, the edge list and the edge weights, and never opened.
-/
import proofs.«119433_j3435973837210_1_alg».proof.Proof.Gen.KernelIdeal.Frame
import proofs.«119433_j3435973837210_1_alg».proof.Proof.Gen.ReferenceIdeal.Read
import Idealize.ShloMosaic.Lib.StableHlo.Run
import Idealize.ShloMosaic.Lib.Pipeline.Value
import Idealize.ShloMosaic.Lib.ValueIdx

noncomputable section

namespace Cert.Gcn.Host

open Idealize.ShloMosaic Idealize.ShloMosaic.TcCoe Idealize.ShloMosaic.ValueIdx Idealize.SL.Sem Idealize.ShloMosaic.StableHlo
open Cert.KernelIdeal Cert.KernelIdeal.Gen

/-- The graph aggregation: the chain of host operations both programs apply to the first dense layer h, the edge list
    x1 and the edge weights x2. -/
def agg (h : FVec Ideal Cert.ReferenceIdeal.S50000x128 .f32) (x1 : IVec Cert.ReferenceIdeal.S2x800000 32)
    (x2 : FVec Ideal Cert.ReferenceIdeal.S800000 .f32) : FVec Ideal Cert.ReferenceIdeal.S50000x128 .f32 :=
  Host.scatterAdd Cert.ReferenceIdeal.scatter_S50000x128_S850000x1_S850000x128_1_0_0_1
    (Cert.ReferenceIdeal.Read.val_main_v67 (F := Ideal)) (Cert.ReferenceIdeal.Read.val_main_v68 (F := Ideal) x1)
    (mulf (Host.gather Cert.ReferenceIdeal.gather_S50000x128_S850000x1_S850000x128_1_0_n_n_0_1_1128 h
        (Cert.ReferenceIdeal.Read.val_main_v62 (F := Ideal) x1))
      (Cert.ReferenceIdeal.Read.val_main_v65 (F := Ideal) x1 x2))

/-- The reference's aggregate is `agg` of its first dense layer. -/
theorem ref_agg (x0 x1 x2 x3 x4 x5) :
    Cert.ReferenceIdeal.Read.val_main_v69 (F := Ideal) x0 x1 x2 x3 x4 x5
      = agg (Cert.ReferenceIdeal.Read.val_main_v24 (F := Ideal) x0 x3 x4 x5) x1 x2 := rfl

/-! ## The operations between the regions, over any contents at the first region's exit -/

section Middle

variable (X : Valuation τ sig (Elt Ideal))

/-- The edge sources with the self-loops appended. -/
theorem mid_v8 : StableHlo.after hostOps1 X (Proc.devRef .tc main_v8)
    = Cert.ReferenceIdeal.Read.val_main_v28 (F := Ideal) (X (Proc.devRef .tc main_arg1)) := by
  after_results
  rfl

/-- The edge targets with the self-loops appended. -/
theorem mid_v11 : StableHlo.after hostOps1 X (Proc.devRef .tc main_v11)
    = Cert.ReferenceIdeal.Read.val_main_v31 (F := Ideal) (X (Proc.devRef .tc main_arg1)) := by
  after_results
  rfl

/-- The edge weights with the self-loops' ones appended. -/
theorem mid_v13 : StableHlo.after hostOps1 X (Proc.devRef .tc main_v13)
    = Cert.ReferenceIdeal.Read.val_main_v33 (F := Ideal) (X (Proc.devRef .tc main_arg2)) := by
  after_results
  rfl

set_option maxRecDepth 200000 in
set_option maxHeartbeats 4000000 in
/-- Where the weighted in-degree is positive. -/
theorem mid_v18 : StableHlo.after hostOps1 X (Proc.devRef .tc main_v18)
    = Cert.ReferenceIdeal.Read.val_main_v38 (F := Ideal) (X (Proc.devRef .tc main_arg1)) (X (Proc.devRef .tc main_arg2)) := by
  after_results_simp
  rfl

set_option maxRecDepth 200000 in
set_option maxHeartbeats 4000000 in
/-- The reciprocal square roots of the weighted in-degrees. -/
theorem mid_v19 : StableHlo.after hostOps1 X (Proc.devRef .tc main_v19)
    = Cert.ReferenceIdeal.Read.val_main_v39 (F := Ideal) (X (Proc.devRef .tc main_arg1)) (X (Proc.devRef .tc main_arg2)) := by
  after_results_simp
  rfl

/-- The zero that stands where the degree is not positive. -/
theorem mid_cst_2 : StableHlo.after hostOps1 X (Proc.devRef .tc main_cst_2) = Cert.ReferenceIdeal.Read.val_main_cst_7 (F := Ideal) := by
  after_results
  rfl

/-- The first dense layer is not written by the first stretch. -/
theorem mid_v4_0 : StableHlo.after hostOps1 X (Proc.devRef .tc main_v4_0) = X (Proc.devRef .tc main_v4_0) := by
  after_results

/-- The selection of the reciprocal square root or zero. -/
theorem sel_v20 : StableHlo.after hostOps1_1 X (Proc.devRef .tc main_v20)
    = select (X (Proc.devRef .tc main_v18)) (X (Proc.devRef .tc main_v19))
        (broadcastInDim S50000 ![] bcast_S_S50000 (X (Proc.devRef .tc main_cst_2))) := by
  after_results_simp
  rfl

theorem sel_v8 : StableHlo.after hostOps1_1 X (Proc.devRef .tc main_v8) = X (Proc.devRef .tc main_v8) := by
  after_results_simp
theorem sel_v11 : StableHlo.after hostOps1_1 X (Proc.devRef .tc main_v11) = X (Proc.devRef .tc main_v11) := by
  after_results_simp
theorem sel_v13 : StableHlo.after hostOps1_1 X (Proc.devRef .tc main_v13) = X (Proc.devRef .tc main_v13) := by
  after_results_simp
theorem sel_v4_0 : StableHlo.after hostOps1_1 X (Proc.devRef .tc main_v4_0) = X (Proc.devRef .tc main_v4_0) := by
  after_results_simp

set_option maxRecDepth 200000 in
set_option maxHeartbeats 4000000 in
/-- The last stretch: from the appended edge list and weights and the edges' normalisation to the aggregate. -/
theorem last_v49 (x1 : IVec Cert.ReferenceIdeal.S2x800000 32) (x2 : FVec Ideal Cert.ReferenceIdeal.S800000 .f32)
    (h8 : X (Proc.devRef .tc main_v8) = Cert.ReferenceIdeal.Read.val_main_v28 (F := Ideal) x1)
    (h11 : X (Proc.devRef .tc main_v11) = Cert.ReferenceIdeal.Read.val_main_v31 (F := Ideal) x1)
    (h13 : X (Proc.devRef .tc main_v13) = Cert.ReferenceIdeal.Read.val_main_v33 (F := Ideal) x2)
    (h20 : X (Proc.devRef .tc main_v20) = Cert.ReferenceIdeal.Read.val_main_v40 (F := Ideal) x1 x2) :
    StableHlo.after hostOps1_2 X (Proc.devRef .tc main_v49) = agg (X (Proc.devRef .tc main_v4_0)) x1 x2 := by
  after_results_simp
  rw [h8, h11, h13, h20]
  rfl

set_option maxRecDepth 200000 in
/-- The second dense layer and the bias row are not written by the operations between the regions. -/
theorem keep_v4_1 : StableHlo.after hostOps1_2 (StableHlo.after hostOps1_1 (StableHlo.after hostOps1 X)) (Proc.devRef .tc main_v4_1)
    = X (Proc.devRef .tc main_v4_1) := by
  after_results_simp

set_option maxRecDepth 200000 in
theorem keep_v3 : StableHlo.after hostOps1_2 (StableHlo.after hostOps1_1 (StableHlo.after hostOps1 X)) (Proc.devRef .tc main_v3)
    = X (Proc.devRef .tc main_v3) := by
  after_results_simp

/-- The three stretches together: the aggregate of the first dense layer as the first region left it. -/
theorem middle_v49 :
    StableHlo.after hostOps1_2 (StableHlo.after hostOps1_1 (StableHlo.after hostOps1 X)) (Proc.devRef .tc main_v49)
      = agg (X (Proc.devRef .tc main_v4_0)) (X (Proc.devRef .tc main_arg1)) (X (Proc.devRef .tc main_arg2)) := by
  rw [last_v49 _ (X (Proc.devRef .tc main_arg1)) (X (Proc.devRef .tc main_arg2))
    ((sel_v8 _).trans (mid_v8 X)) ((sel_v11 _).trans (mid_v11 X)) ((sel_v13 _).trans (mid_v13 X))
    ((sel_v20 _).trans (by rw [mid_v18, mid_v19, mid_cst_2]; rfl)),
    sel_v4_0, mid_v4_0]

end Middle

/-! ## The run's contents at the two regions' entries -/

section Entries

variable (m : (ℓ : Loc nD τ sig) → Buf (Elt Ideal) ℓ) (ρ : Dev nD → PrngReg)

/-- A vector laid out as a one-row matrix reads its entry k at (0, k). -/
theorem row_apply (x : S128.Idx → EReal) (k : Fin 128) :
    shapeCast S1x128 x shapeCasts_S128_S1x128 (ix2 (0 : Fin 1) k) = x (ix1 k) :=
  shapeCast_apply x shapeCasts_S128_S1x128 (ix2 (0 : Fin 1) k) (ix1 k) (by
    rw [Shape.rowMajor_val_one, Shape.rowMajor_val_two]
    show k.val = 0 * 128 + k.val
    omega)

theorem V1_arg0 (c : Dev nD) : V1 m ρ c main_arg0 = m ((c : Thread nD τ).loc main_arg0) := by
  show StableHlo.after hostOps0 (W0 m ρ c) (Proc.devRef .tc main_arg0) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results

/-- The weight row at the first region's entry. -/
theorem V1_v0 (c : Dev nD) (k : Fin 128) :
    (V1 m ρ c main_v0 : S1x128.Idx → EReal) (ix2 (0 : Fin 1) k) = (m ((c : Thread nD τ).loc main_arg3) : S128.Idx → EReal) (ix1 k) := by
  have e : (V1 m ρ c main_v0 : S1x128.Idx → EReal) = shapeCast S1x128 (m ((c : Thread nD τ).loc main_arg3) : S128.Idx → EReal) shapeCasts_S128_S1x128 := by
    show StableHlo.after hostOps0 (W0 m ρ c) (Proc.devRef .tc main_v0) = _
    after_results
    rfl
  rw [e]; exact row_apply _ k

/-- The bias row of the normalisation. -/
theorem V1_v1 (c : Dev nD) (k : Fin 128) :
    (V1 m ρ c main_v1 : S1x128.Idx → EReal) (ix2 (0 : Fin 1) k) = (m ((c : Thread nD τ).loc main_arg4) : S128.Idx → EReal) (ix1 k) := by
  have e : (V1 m ρ c main_v1 : S1x128.Idx → EReal) = shapeCast S1x128 (m ((c : Thread nD τ).loc main_arg4) : S128.Idx → EReal) shapeCasts_S128_S1x128 := by
    show StableHlo.after hostOps0 (W0 m ρ c) (Proc.devRef .tc main_v1) = _
    after_results
    rfl
  rw [e]; exact row_apply _ k

/-- The bias row of the second dense layer. -/
theorem V1_v2 (c : Dev nD) (k : Fin 128) :
    (V1 m ρ c main_v2 : S1x128.Idx → EReal) (ix2 (0 : Fin 1) k) = (m ((c : Thread nD τ).loc main_arg8) : S128.Idx → EReal) (ix1 k) := by
  have e : (V1 m ρ c main_v2 : S1x128.Idx → EReal) = shapeCast S1x128 (m ((c : Thread nD τ).loc main_arg8) : S128.Idx → EReal) shapeCasts_S128_S1x128 := by
    show StableHlo.after hostOps0 (W0 m ρ c) (Proc.devRef .tc main_v2) = _
    after_results
    rfl
  rw [e]; exact row_apply _ k

/-- The bias row of the aggregate, as the second region finds it. -/
theorem V5_v3 (c : Dev nD) (q : Fin 128) :
    (V5 m ρ c main_v3 : S1x128.Idx → EReal) (ix2 (0 : Fin 1) q) = (m ((c : Thread nD τ).loc main_arg6) : S128.Idx → EReal) (ix1 q) := by
  have e : (V5 m ρ c main_v3 : S1x128.Idx → EReal) = shapeCast S1x128 (m ((c : Thread nD τ).loc main_arg6) : S128.Idx → EReal) shapeCasts_S128_S1x128 := by
    show StableHlo.after hostOps1_2 (StableHlo.after hostOps1_1 (StableHlo.after hostOps1 (W2 m ρ c))) (Proc.devRef .tc main_v3) = _
    rw [keep_v3, W2_of_ne m ρ c main_v3 (by decide)]
    show StableHlo.after hostOps0 (W0 m ρ c) (Proc.devRef .tc main_v3) = _
    after_results
    rfl
  rw [e]; exact row_apply _ q

/-- The second dense layer, as the second region finds it: what the first region's write-backs left. -/
theorem V5_v4_1 (c : Dev nD) : V5 m ρ c main_v4_1 = (dat0 (V1 m ρ) c).arrAt 7 cfg0.N := by
  show StableHlo.after hostOps1_2 (StableHlo.after hostOps1_1 (StableHlo.after hostOps1 (W2 m ρ c))) (Proc.devRef .tc main_v4_1) = _
  rw [keep_v4_1]
  exact W2_arr m ρ c 7

/-- The aggregate, as the second region finds it: `agg` of what the first region's write-backs left in the first
    dense layer's array, of the edge list and of the edge weights. -/
theorem V5_v49 (c : Dev nD) :
    V5 m ρ c main_v49 = agg ((dat0 (V1 m ρ) c).arrAt 6 cfg0.N) (m ((c : Thread nD τ).loc main_arg1)) (m ((c : Thread nD τ).loc main_arg2)) := by
  show StableHlo.after hostOps1_2 (StableHlo.after hostOps1_1 (StableHlo.after hostOps1 (W2 m ρ c))) (Proc.devRef .tc main_v49) = _
  rw [middle_v49, W2_arr m ρ c 6, W2_of_ne m ρ c main_arg1 (by decide), W2_of_ne m ρ c main_arg2 (by decide), W1_arg1, W1_arg2]

end Entries

end Cert.Gcn.Host

end
-- ==== Proof.Spec.lean ====
/-
  The mathematics both programs compute, entry by entry, on the extended reals.

  A row of the input (128 entries) is normalised: its mean is the row's sum divided by 128, its variance the sum of
  the squared deviations divided by 128, and entry k of the normalised row is the deviation times the reciprocal
  square root of (variance + a small constant), times a weight, plus a bias. Both dense layers are a matrix product
  of the normalised rows with a 128 x 128 matrix. After the graph aggregation (the same chain of host operations in
  both programs, never opened here), an entry of the result is the leaky rectifier of (aggregate + bias), plus the
  entry of the second dense layer.
-/
import Idealize.ShloMosaic.PureOps.Ideal
import Idealize.ShloMosaic.Lib.ValueIdx

noncomputable section

namespace Cert.Gcn

open Idealize.ShloMosaic
open scoped BigOperators

/-- The mean of a row: its sum divided by 128 (the f32 word 0x43000000). -/
def mean (r : Fin 128 → EReal) : EReal := Ideal.div (∑ k : Fin 128, r k) (Ideal.ofBits .f32 0x43000000#32)

/-- The variance of a row: the sum of the squared deviations from the mean, divided by 128. -/
def var (r : Fin 128 → EReal) : EReal :=
  Ideal.div (∑ k : Fin 128, (r k - mean r) * (r k - mean r)) (Ideal.ofBits .f32 0x43000000#32)

/-- Entry k of the normalised row, with the weights w and the biases b. -/
def lnRow (r w b : Fin 128 → EReal) (k : Fin 128) : EReal :=
  (r k - mean r) * Ideal.rsqrt (var r + Ideal.ofBits .f32 0x3727C5AC#32) * w k + b k

/-- An entry of a dense layer without bias: the normalised row against column q of the matrix M. -/
def dense (r w b : Fin 128 → EReal) (M : Fin 128 → EReal) : EReal := ∑ k : Fin 128, lnRow r w b k * M k

/-- The last step at one entry: the leaky rectifier (slope the f32 word 0x3C23D70A) of aggregate + bias, plus the
    entry t of the second dense layer. -/
def combine (agg bias t : EReal) : EReal :=
  Scalar.select (Ideal.cmp .oge (agg + bias) (Ideal.ofBits .f32 0x00000000#32)) (agg + bias)
    (Ideal.ofBits .f32 0x3C23D70A#32 * (agg + bias)) + t

end Cert.Gcn

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.Body0.lean ====
/-
  The first kernel's arithmetic at one entry of a block of 5000 rows: the normalised row, and the two matrix products
  of the normalised block with the two 128 x 128 matrices (the second with a bias row added).
-/
import proofs.«119433_j3435973837210_1_alg».proof.Proof.Gen.KernelIdeal.Skeleton
import proofs.«119433_j3435973837210_1_alg».proof.Proof.Spec
import proofs.«119433_j3435973837210_1_alg».proof.Proof.LibDot
import proofs.«119433_j3435973837210_1_alg».proof.Proof.LibKeepdims
import proofs.«119433_j3435973837210_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Body0

open Idealize.ShloMosaic Idealize.ShloMosaic.ValueIdx Cert.KernelIdeal Cert.KernelIdeal.Gen Cert.Gcn
open scoped BigOperators

/-- The sum of row p of a 5000 x 128 array. -/
private theorem rowSum (y : FVec Ideal S5000x128 .f32) (p : Fin 5000) :
    multiReduction .add [1] S5000 y 0x00000000#32 reduces_S5000x128_S5000 (.inl rfl) rfl (ix1 p)
      = ∑ k : Fin 128, y (ix2 p k) :=
  Cert.LibRowReduce.rowSum_apply (a := 5000) (b := 128) y _ _ _ p

/-- A vector of 5000 row results viewed as a column, divided by a constant and spread over the 128 columns. -/
private theorem colDiv (v : FVec Ideal S5000 .f32) (c : Ideal .f32) (p : Fin 5000) (k : Fin 128) :
    broadcastTo S5000x128 (divf (shapeCast S5000x1 v shapeCasts_S5000_S5000x1) (broadcast S5000x1 c))
        broadcasts_S5000x1_S5000x128 (ix2 p k)
      = Ideal.div (v (ix1 p)) c :=
  (broadcastTo_a1_ab_apply (a := 5000) (b := 128) _ _ p k).trans
    (congrArg (fun t => Ideal.div t c) (shapeCast_a_a1_apply (a := 5000) v _ p 0))

/-- The same column, with a constant added and the reciprocal square root taken before it is spread. -/
private theorem colRsqrt (v : FVec Ideal S5000 .f32) (c e : Ideal .f32) (p : Fin 5000) (k : Fin 128) :
    broadcastTo S5000x128
        (rsqrt (addf (divf (shapeCast S5000x1 v shapeCasts_S5000_S5000x1) (broadcast S5000x1 c)) (broadcast S5000x1 e)))
        broadcasts_S5000x1_S5000x128 (ix2 p k)
      = Ideal.rsqrt (Ideal.div (v (ix1 p)) c + e) :=
  (broadcastTo_a1_ab_apply (a := 5000) (b := 128) _ _ p k).trans
    (congrArg (fun t => Ideal.rsqrt (Ideal.div t c + e)) (shapeCast_a_a1_apply (a := 5000) v _ p 0))

/-- A row of 128 entries spread over the 5000 rows reads its own entry of the column. -/
private theorem rowSpread (w : Vec Ideal S1x128 .f32) (p : Fin 5000) (k : Fin 128) :
    broadcastTo S5000x128 (shapeCast S1x128 w shapeCasts_S1x128_S1x128) broadcasts_S1x128_S5000x128 (ix2 p k)
      = w (ix2 (0 : Fin 1) k) :=
  (broadcastTo_1b_ab_apply (a := 5000) (b := 128) _ _ p k).trans
    (congrFun (shapeCast_self w shapeCasts_S1x128_S1x128) _)

/-- The block of row means, read at (p, k): the mean of row p. -/
private theorem meanBlock (x0 : Vec Ideal S5000x128 .f32) (p : Fin 5000) (k : Fin 128) :
    broadcastTo S5000x128
        (divf (shapeCast S5000x1 (multiReduction .add [1] S5000 x0 0x00000000#32 reduces_S5000x128_S5000 (.inl rfl) rfl)
          shapeCasts_S5000_S5000x1) (broadcast S5000x1 (Scalar.ofBits (F := Ideal) .f32 0x43000000#32)))
        broadcasts_S5000x1_S5000x128 (ix2 p k)
      = mean (fun c => x0 (ix2 p c)) :=
  (colDiv _ _ p k).trans (congrArg (fun t => Ideal.div t (Ideal.ofBits .f32 0x43000000#32)) (rowSum x0 p))

/-- Entry (p, k) of the normalised block: row p of the block normalised, with the weight row x1 and the bias row x2. -/
theorem pay1_apply (x0 : Vec Ideal S5000x128 .f32) (x1 x2 : Vec Ideal S1x128 .f32) (p : Fin 5000) (k : Fin 128) :
    k0_pay1 (F := Ideal) x0 x1 x2 (ix2 p k)
      = lnRow (fun c => x0 (ix2 p c)) (fun c => x1 (ix2 (0 : Fin 1) c)) (fun c => x2 (ix2 (0 : Fin 1) c)) k := by
  have hdev : ∀ c : Fin 128,
      x0 (ix2 p c) - broadcastTo S5000x128
        (divf (shapeCast S5000x1 (multiReduction .add [1] S5000 x0 0x00000000#32 reduces_S5000x128_S5000 (.inl rfl) rfl)
          shapeCasts_S5000_S5000x1) (broadcast S5000x1 (Scalar.ofBits (F := Ideal) .f32 0x43000000#32)))
        broadcasts_S5000x1_S5000x128 (ix2 p c)
      = x0 (ix2 p c) - mean (fun c => x0 (ix2 p c)) := fun c => congrArg (fun t => x0 (ix2 p c) - t) (meanBlock x0 p c)
  unfold k0_pay1
  simp only [truncf_apply, addf_apply, mulf_apply, subf_apply]
  unfold lnRow var
  refine congrArg₂ (· + ·) (congrArg₂ (· * ·) (congrArg₂ (· * ·) (hdev k) ?_) (rowSpread x1 p k)) (rowSpread x2 p k)
  refine (colRsqrt _ _ _ p k).trans ?_
  refine congrArg (fun t => Ideal.rsqrt (Ideal.div t (Ideal.ofBits .f32 0x43000000#32) + Ideal.ofBits .f32 0x3727C5AC#32)) ?_
  refine (rowSum _ p).trans ?_
  exact Finset.sum_congr rfl fun c _ => congrArg₂ (· * ·) (hdev c) (hdev c)

/-- Entry (p, q) of the first product: the normalised row p against column q of x3. -/
theorem pay2_apply (x0 : Vec Ideal S5000x128 .f32) (x1 x2 : Vec Ideal S1x128 .f32) (x3 : Vec Ideal S128x128 .f32)
    (p : Fin 5000) (q : Fin 128) :
    k0_pay2 (F := Ideal) x0 x1 x2 x3 (ix2 p q)
      = dense (fun c => x0 (ix2 p c)) (fun c => x1 (ix2 (0 : Fin 1) c)) (fun c => x2 (ix2 (0 : Fin 1) c)) (fun k => x3 (ix2 k q)) := by
  unfold k0_pay2 dense
  refine (Cert.LibDot.matmul_zero_apply (m := 5000) (k := 128) (n := 128) _ none _ _ p q).trans ?_
  exact Finset.sum_congr rfl fun c _ => congrArg (fun t => t * x3 (ix2 c q)) (pay1_apply x0 x1 x2 p c)

/-- Entry (p, q) of the second product with its bias: the normalised row p against column q of x4, plus x5 (0, q). -/
theorem pay3_apply (x0 : Vec Ideal S5000x128 .f32) (x1 x2 : Vec Ideal S1x128 .f32) (x4 : Vec Ideal S128x128 .f32)
    (x5 : Vec Ideal S1x128 .f32) (p : Fin 5000) (q : Fin 128) :
    k0_pay3 (F := Ideal) x0 x1 x2 x4 x5 (ix2 p q)
      = dense (fun c => x0 (ix2 p c)) (fun c => x1 (ix2 (0 : Fin 1) c)) (fun c => x2 (ix2 (0 : Fin 1) c)) (fun k => x4 (ix2 k q))
        + x5 (ix2 (0 : Fin 1) q) := by
  unfold k0_pay3 dense
  refine congrArg₂ (· + ·) ?_ (rowSpread x5 p q)
  refine (Cert.LibDot.matmul_zero_apply (m := 5000) (k := 128) (n := 128) _ none _ _ p q).trans ?_
  exact Finset.sum_congr rfl fun c _ => congrArg (fun t => t * x4 (ix2 c q)) (pay1_apply x0 x1 x2 p c)

end Cert.Gcn.Body0

end
-- ==== Proof.Region0.lean ====
/-
  The first kernel's two result arrays after its ten grid points: point t works on rows 5000 t .. 5000 t + 4999, so
  row a of each result is computed from row a of the input by the point a / 5000, and the blocks cover the array.
-/
import proofs.«119433_j3435973837210_1_alg».proof.Proof.Gen.KernelIdeal.Frame
import proofs.«119433_j3435973837210_1_alg».proof.Proof.Body0
import Idealize.ShloMosaic.Lib.Pipeline.Value

noncomputable section

namespace Cert.Gcn.Region0

open Idealize.ShloMosaic Idealize.ShloMosaic.TcCoe Idealize.ShloMosaic.ValueIdx Idealize.SL.Sem
open Cert.KernelIdeal Cert.KernelIdeal.Gen Cert.Gcn
open Idealize.ShloMosaic.Pipeline (Dat)
open scoped BigOperators

theorem zero_offsets0 : (![0, 0] : Fin 2 → Nat) = fun _ => 0 := funext fun a => by fin_cases a <;> rfl

/-- The function the first result array ends holding: row (i 0) of the input, normalised, against column (i 1)
    of the matrix. -/
abbrev arrayValue6 (A : S50000x128.Idx → EReal) (W B : S1x128.Idx → EReal) (M : S128x128.Idx → EReal) :
    S50000x128.Idx → EReal :=
  fun i => dense (fun k => A (ix2 ⟨(i 0).val, (i 0).isLt⟩ k)) (fun k => W (ix2 (0 : Fin 1) k))
    (fun k => B (ix2 (0 : Fin 1) k)) (fun k => M (ix2 k ⟨(i 1).val, (i 1).isLt⟩))

/-- The function the second result array ends holding: the same against the second matrix, plus the bias. -/
abbrev arrayValue7 (A : S50000x128.Idx → EReal) (W B : S1x128.Idx → EReal) (M : S128x128.Idx → EReal)
    (C : S1x128.Idx → EReal) : S50000x128.Idx → EReal :=
  fun i => dense (fun k => A (ix2 ⟨(i 0).val, (i 0).isLt⟩ k)) (fun k => W (ix2 (0 : Fin 1) k))
    (fun k => B (ix2 (0 : Fin 1) k)) (fun k => M (ix2 k ⟨(i 1).val, (i 1).isLt⟩))
    + C (ix2 (0 : Fin 1) ⟨(i 1).val, (i 1).isLt⟩)

/-- The index maps over the ten grid points: the input and both results are on block (t, 0), the weights, biases
    and matrices on block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The first body's value at entry j of a block whose row is row (i 0) of the array and whose column is (i 1). -/
theorem point_value6 (x0 : Vec Ideal S5000x128 .f32) (x1 x2 : Vec Ideal S1x128 .f32) (x3 : Vec Ideal S128x128 .f32)
    (A : S50000x128.Idx → EReal) (W B : S1x128.Idx → EReal) (M : S128x128.Idx → EReal)
    (j : S5000x128.Idx) (i : S50000x128.Idx)
    (h0 : ∀ k : Fin 128, x0 (ix2 ⟨(j 0).val, (j 0).isLt⟩ k) = A (ix2 ⟨(i 0).val, (i 0).isLt⟩ k))
    (h1 : ∀ k : Fin 128, x1 (ix2 (0 : Fin 1) k) = W (ix2 (0 : Fin 1) k))
    (h2 : ∀ k : Fin 128, x2 (ix2 (0 : Fin 1) k) = B (ix2 (0 : Fin 1) k))
    (h3 : ∀ k q : Fin 128, x3 (ix2 k q) = M (ix2 k q))
    (hi : (i 1).val = (j 1).val) :
    k0_pay2 (F := Ideal) x0 x1 x2 x3 j = arrayValue6 A W B M i := by
  obtain ⟨p, q, rfl⟩ : ∃ (p : Fin 5000) (q : Fin 128), j = ix2 p q := ⟨j 0, j 1, eq_ix2 j⟩
  have hq : (⟨(i 1).val, (i 1).isLt⟩ : Fin 128) = q := Fin.ext hi
  have e0 : (fun c => x0 (ix2 p c)) = fun k => A (ix2 ⟨(i 0).val, (i 0).isLt⟩ k) := funext h0
  have e1 : (fun c => x1 (ix2 (0 : Fin 1) c)) = fun k => W (ix2 (0 : Fin 1) k) := funext h1
  have e2 : (fun c => x2 (ix2 (0 : Fin 1) c)) = fun k => B (ix2 (0 : Fin 1) k) := funext h2
  have e3 : (fun k => x3 (ix2 k q)) = fun k => M (ix2 k ⟨(i 1).val, (i 1).isLt⟩) :=
    funext fun k => by rw [hq]; exact h3 k q
  refine (Cert.Gcn.Body0.pay2_apply x0 x1 x2 x3 p q).trans ?_
  exact congr (congr (congr (congrArg dense e0) e1) e2) e3

/-- The second body's value at entry j of such a block. -/
theorem point_value7 (x0 : Vec Ideal S5000x128 .f32) (x1 x2 : Vec Ideal S1x128 .f32) (x4 : Vec Ideal S128x128 .f32)
    (x5 : Vec Ideal S1x128 .f32)
    (A : S50000x128.Idx → EReal) (W B : S1x128.Idx → EReal) (M : S128x128.Idx → EReal) (C : S1x128.Idx → EReal)
    (j : S5000x128.Idx) (i : S50000x128.Idx)
    (h0 : ∀ k : Fin 128, x0 (ix2 ⟨(j 0).val, (j 0).isLt⟩ k) = A (ix2 ⟨(i 0).val, (i 0).isLt⟩ k))
    (h1 : ∀ k : Fin 128, x1 (ix2 (0 : Fin 1) k) = W (ix2 (0 : Fin 1) k))
    (h2 : ∀ k : Fin 128, x2 (ix2 (0 : Fin 1) k) = B (ix2 (0 : Fin 1) k))
    (h4 : ∀ k q : Fin 128, x4 (ix2 k q) = M (ix2 k q))
    (h5 : ∀ k : Fin 128, x5 (ix2 (0 : Fin 1) k) = C (ix2 (0 : Fin 1) k))
    (hi : (i 1).val = (j 1).val) :
    k0_pay3 (F := Ideal) x0 x1 x2 x4 x5 j = arrayValue7 A W B M C i := by
  obtain ⟨p, q, rfl⟩ : ∃ (p : Fin 5000) (q : Fin 128), j = ix2 p q := ⟨j 0, j 1, eq_ix2 j⟩
  have hq : (⟨(i 1).val, (i 1).isLt⟩ : Fin 128) = q := Fin.ext hi
  have e0 : (fun c => x0 (ix2 p c)) = fun k => A (ix2 ⟨(i 0).val, (i 0).isLt⟩ k) := funext h0
  have e1 : (fun c => x1 (ix2 (0 : Fin 1) c)) = fun k => W (ix2 (0 : Fin 1) k) := funext h1
  have e2 : (fun c => x2 (ix2 (0 : Fin 1) c)) = fun k => B (ix2 (0 : Fin 1) k) := funext h2
  have e4 : (fun k => x4 (ix2 k q)) = fun k => M (ix2 k ⟨(i 1).val, (i 1).isLt⟩) :=
    funext fun k => by rw [hq]; exact h4 k q
  have e5 : x5 (ix2 (0 : Fin 1) q) = C (ix2 (0 : Fin 1) ⟨(i 1).val, (i 1).isLt⟩) := by rw [hq]; exact h5 q
  refine (Cert.Gcn.Body0.pay3_apply x0 x1 x2 x4 x5 p q).trans ?_
  exact congr (congrArg (fun u v : EReal => u + v) (congr (congr (congr (congrArg dense e0) e1) e2) e4)) e5

variable (V : (c : Dev nD) → (b : Ref sig .tc) → Buf (Elt Ideal) ((c : Thread nD τ).loc b))

/-- The input's block at point t is rows 5000 t .. 5000 t + 4999 of the input array. -/
theorem read_rows (c : Dev nD) (t : Fin cfg0.N) (p : Fin 5000) (k : Fin 128) (r : Fin 50000)
    (hr : r.val = t.val * 5000 + p.val) :
    (iblk0 (F := Ideal) V c 0 t : Vec Ideal S5000x128 .f32) (ix2 p k)
      = (V c main_arg0 : S50000x128.Idx → EReal) (ix2 r k) := by
  obtain ⟨e00, e01, -⟩ := index_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at every point is the whole array. -/
theorem read_weights (c : Dev nD) (t : Fin cfg0.N) (k : Fin 128) :
    (iblk0 (F := Ideal) V c 1 t : Vec Ideal S1x128 .f32) (ix2 (0 : Fin 1) k)
      = (V c main_v0 : S1x128.Idx → EReal) (ix2 (0 : Fin 1) k) := by
  obtain ⟨-, -, e10, e11, -⟩ := index_facts0 t
  show V c main_v0 (((cfg0.win 1).blk t).view.emb (ix2 (0 : Fin 1) k)) = V c main_v0 (ix2 (0 : Fin 1) k)
  refine congrArg (V c main_v0) (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- The normalisation biases' block at every point is the whole array. -/
theorem read_biases (c : Dev nD) (t : Fin cfg0.N) (k : Fin 128) :
    (iblk0 (F := Ideal) V c 2 t : Vec Ideal S1x128 .f32) (ix2 (0 : Fin 1) k)
      = (V c main_v1 : S1x128.Idx → EReal) (ix2 (0 : Fin 1) k) := by
  obtain ⟨-, -, -, -, e20, e21, -⟩ := index_facts0 t
  show V c main_v1 (((cfg0.win 2).blk t).view.emb (ix2 (0 : Fin 1) k)) = V c main_v1 (ix2 (0 : Fin 1) k)
  refine congrArg (V c main_v1) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The first matrix's block at every point is the whole array. -/
theorem read_matrix3 (c : Dev nD) (t : Fin cfg0.N) (k q : Fin 128) :
    (iblk0 (F := Ideal) V c 3 t : Vec Ideal S128x128 .f32) (ix2 k q)
      = (V c main_arg5 : S128x128.Idx → EReal) (ix2 k q) := by
  obtain ⟨-, -, -, -, -, -, e30, e31, -⟩ := index_facts0 t
  show V c main_arg5 (((cfg0.win 3).blk t).view.emb (ix2 k q)) = V c main_arg5 (ix2 k q)
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second matrix's block at every point is the whole array. -/
theorem read_matrix4 (c : Dev nD) (t : Fin cfg0.N) (k q : Fin 128) :
    (iblk0 (F := Ideal) V c 4 t : Vec Ideal S128x128 .f32) (ix2 k q)
      = (V c main_arg7 : S128x128.Idx → EReal) (ix2 k q) := by
  obtain ⟨-, -, -, -, -, -, -, -, e40, e41, -⟩ := index_facts0 t
  show V c main_arg7 (((cfg0.win 4).blk t).view.emb (ix2 k q)) = V c main_arg7 (ix2 k q)
  refine congrArg (V c main_arg7) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The second layer's bias block at every point is the whole array. -/
theorem read_bias5 (c : Dev nD) (t : Fin cfg0.N) (k : Fin 128) :
    (iblk0 (F := Ideal) V c 5 t : Vec Ideal S1x128 .f32) (ix2 (0 : Fin 1) k)
      = (V c main_v2 : S1x128.Idx → EReal) (ix2 (0 : Fin 1) k) := by
  obtain ⟨-, -, -, -, -, -, -, -, -, -, e50, e51, -⟩ := index_facts0 t
  show V c main_v2 (((cfg0.win 5).blk t).view.emb (ix2 (0 : Fin 1) k)) = V c main_v2 (ix2 (0 : Fin 1) k)
  refine congrArg (V c main_v2) (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- What point t writes back to the first result is block t of its array function. -/
theorem flushed6_eq (c : Dev nD) (t : Fin cfg0.N) :
    (dat0 (F := Ideal) V c).flushed 6 t
      = ((cfg0.win 6).blk t).view.read (Elt Ideal)
          (arrayValue6 (V c main_arg0) (V c main_v0) (V c main_v1) (V c main_arg5)) := by
  show (cfg0.win 6).cut (grid0.coords t) ((dat0 V c).after 6 t) = _
  rw [after0_6]
  unfold out0_6
  rw [View.canon_unit_zero zero_offsets0]
  simp only [View.ld_unit_zero (S := S5000x128) zero_offsets0, View.ld_unit_zero (S := S1x128) zero_offsets0,
    View.ld_unit_zero (S := S128x128) zero_offsets0]
  obtain ⟨-, -, -, -, -, -, -, -, -, -, -, -, e60, e61, -⟩ := index_facts0 t
  funext j
  show k0_pay2 (F := Ideal) (iblk0 V c 0 t) (iblk0 V c 1 t) (iblk0 V c 2 t) (iblk0 V c 3 t) j
    = arrayValue6 (V c main_arg0) (V c main_v0) (V c main_v1) (V c main_arg5) (((cfg0.win 6).blk t).view.emb j)
  refine point_value6 _ _ _ _ _ _ _ _ j _ (fun k => read_rows V c t _ k _ ?_) (read_weights V c t)
    (read_biases V c t) (read_matrix3 V c t) ?_
  · show win0_6.index t (0 : Fin 2) * 5000 + 1 * (j 0).val = t.val * 5000 + (j 0).val
    omega
  · show win0_6.index t (1 : Fin 2) * 128 + 1 * (j 1).val = (j 1).val
    omega

/-- What point t writes back to the second result is block t of its array function. -/
theorem flushed7_eq (c : Dev nD) (t : Fin cfg0.N) :
    (dat0 (F := Ideal) V c).flushed 7 t
      = ((cfg0.win 7).blk t).view.read (Elt Ideal)
          (arrayValue7 (V c main_arg0) (V c main_v0) (V c main_v1) (V c main_arg7) (V c main_v2)) := by
  show (cfg0.win 7).cut (grid0.coords t) ((dat0 V c).after 7 t) = _
  rw [after0_7]
  unfold out0_7
  rw [View.canon_unit_zero zero_offsets0]
  simp only [View.ld_unit_zero (S := S5000x128) zero_offsets0, View.ld_unit_zero (S := S1x128) zero_offsets0,
    View.ld_unit_zero (S := S128x128) zero_offsets0]
  obtain ⟨-, -, -, -, -, -, -, -, -, -, -, -, -, -, e70, e71⟩ := index_facts0 t
  funext j
  show k0_pay3 (F := Ideal) (iblk0 V c 0 t) (iblk0 V c 1 t) (iblk0 V c 2 t) (iblk0 V c 4 t) (iblk0 V c 5 t) j
    = arrayValue7 (V c main_arg0) (V c main_v0) (V c main_v1) (V c main_arg7) (V c main_v2)
        (((cfg0.win 7).blk t).view.emb j)
  refine point_value7 _ _ _ _ _ _ _ _ _ _ j _ (fun k => read_rows V c t _ k _ ?_) (read_weights V c t)
    (read_biases V c t) (read_matrix4 V c t) (read_bias5 V c t) ?_
  · show win0_7.index t (0 : Fin 2) * 5000 + 1 * (j 0).val = t.val * 5000 + (j 0).val
    omega
  · show win0_7.index t (1 : Fin 2) * 128 + 1 * (j 1).val = (j 1).val
    omega

/-- An index of the first result is in point t's block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v4_0).slice (win0_6.rect t)).set ↔ _
  rw [View.set_slice_whole, Rect.mem_set_unit]
  exact Iff.rfl

/-- The same for the second result. -/
theorem mem_blk7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v4_1).slice (win0_7.rect t)).set ↔ _
  rw [View.set_slice_whole, Rect.mem_set_unit]
  exact Iff.rfl

/-- The point whose block holds row r: r / 5000. -/
def pointOf (i : S50000x128.Idx) : Fin cfg0.N :=
  ⟨(i 0).val / 5000, by have h : (i 0).val < 50000 := (i 0).isLt; show (i 0).val / 5000 < grid0.N; rw [N_0]; omega⟩

theorem pointOf_val (i : S50000x128.Idx) : (pointOf i).val = (i 0).val / 5000 := rfl

/-- Every index of the first result is in the block of the point of its row. -/
theorem covered6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have ht := pointOf_val i
  obtain ⟨-, -, -, -, -, -, -, -, -, -, -, -, e60, e61, -⟩ := index_facts0 (pointOf i)
  refine ⟨pointOf i, flush0_6 _, ?_⟩
  rw [mem_blk6]
  intro a
  match a with
  | ⟨0, _⟩ => show win0_6.index (pointOf i) (0 : Fin 2) * 5000 ≤ (i 0).val ∧ (i 0).val < win0_6.index (pointOf i) (0 : Fin 2) * 5000 + 5000; omega
  | ⟨1, _⟩ => show win0_6.index (pointOf i) (1 : Fin 2) * 128 ≤ (i 1).val ∧ (i 1).val < win0_6.index (pointOf i) (1 : Fin 2) * 128 + 128; omega

/-- Every index of the second result is in the block of the point of its row. -/
theorem covered7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have ht := pointOf_val i
  obtain ⟨-, -, -, -, -, -, -, -, -, -, -, -, -, -, e70, e71⟩ := index_facts0 (pointOf i)
  refine ⟨pointOf i, flush0_7 _, ?_⟩
  rw [mem_blk7]
  intro a
  match a with
  | ⟨0, _⟩ => show win0_7.index (pointOf i) (0 : Fin 2) * 5000 ≤ (i 0).val ∧ (i 0).val < win0_7.index (pointOf i) (0 : Fin 2) * 5000 + 5000; omega
  | ⟨1, _⟩ => show win0_7.index (pointOf i) (1 : Fin 2) * 128 ≤ (i 1).val ∧ (i 1).val < win0_7.index (pointOf i) (1 : Fin 2) * 128 + 128; omega

/-- The first result (the first dense layer) at (a, q), from the arrays as the region finds them. -/
theorem final6 (c : Dev nD) (a : Fin 50000) (q : Fin 128) :
    ((dat0 (F := Ideal) V c).arrAt 6 cfg0.N : S50000x128.Idx → EReal) (ix2 a q)
      = dense (fun k => (V c main_arg0 : S50000x128.Idx → EReal) (ix2 a k))
          (fun k => (V c main_v0 : S1x128.Idx → EReal) (ix2 (0 : Fin 1) k))
          (fun k => (V c main_v1 : S1x128.Idx → EReal) (ix2 (0 : Fin 1) k))
          (fun k => (V c main_arg5 : S128x128.Idx → EReal) (ix2 k q)) := by
  have h := (dat0 (F := Ideal) V c).arrAt_eq_of_cover 6
    (arrayValue6 (V c main_arg0) (V c main_v0) (V c main_v1) (V c main_arg5))
    (fun t _ => flushed6_eq V c t) covered6
  exact congrFun h (ix2 a q)

/-- The second result (the second dense layer with its bias) at (a, q). -/
theorem final7 (c : Dev nD) (a : Fin 50000) (q : Fin 128) :
    ((dat0 (F := Ideal) V c).arrAt 7 cfg0.N : S50000x128.Idx → EReal) (ix2 a q)
      = dense (fun k => (V c main_arg0 : S50000x128.Idx → EReal) (ix2 a k))
          (fun k => (V c main_v0 : S1x128.Idx → EReal) (ix2 (0 : Fin 1) k))
          (fun k => (V c main_v1 : S1x128.Idx → EReal) (ix2 (0 : Fin 1) k))
          (fun k => (V c main_arg7 : S128x128.Idx → EReal) (ix2 k q))
        + (V c main_v2 : S1x128.Idx → EReal) (ix2 (0 : Fin 1) q) := by
  have h := (dat0 (F := Ideal) V c).arrAt_eq_of_cover 7
    (arrayValue7 (V c main_arg0) (V c main_v0) (V c main_v1) (V c main_arg7) (V c main_v2))
    (fun t _ => flushed7_eq V c t) covered7
  exact congrFun h (ix2 a q)

end Cert.Gcn.Region0

end
-- ==== Proof.Region1.lean ====
/-
  The second kernel: at one entry, the leaky rectifier of (aggregate + bias) plus the second dense layer's entry; and
  its result array after its ten grid points, each of which works on a block of 5000 rows.
-/
import proofs.«119433_j3435973837210_1_alg».proof.Proof.Gen.KernelIdeal.Frame
import proofs.«119433_j3435973837210_1_alg».proof.Proof.Spec
import Idealize.ShloMosaic.Lib.ValueIdx
import Idealize.ShloMosaic.Lib.ValueLayout
import Idealize.ShloMosaic.Lib.Pipeline.Value

noncomputable section

namespace Cert.Gcn.Region1

open Idealize.ShloMosaic Idealize.ShloMosaic.TcCoe Idealize.ShloMosaic.ValueIdx Idealize.SL.Sem
open Cert.KernelIdeal Cert.KernelIdeal.Gen Cert.Gcn
open Idealize.ShloMosaic.Pipeline (Dat)

/-- The body's value at entry (p, q) of a block. -/
theorem pay1_apply (x0 : Vec Ideal S5000x128 .f32) (x2 : Vec Ideal S1x128 .f32) (x11 : Vec Ideal S5000x128 .f32)
    (p : Fin 5000) (q : Fin 128) :
    k1_pay1 (F := Ideal) x0 x2 x11 (ix2 p q) = combine (x0 (ix2 p q)) (x2 (ix2 (0 : Fin 1) q)) (x11 (ix2 p q)) := by
  have hb : broadcastTo S5000x128 x2 broadcasts_S1x128_S5000x128 (ix2 p q) = x2 (ix2 (0 : Fin 1) q) :=
    broadcastTo_1b_ab_apply (a := 5000) (b := 128) x2 broadcasts_S1x128_S5000x128 p q
  unfold k1_pay1
  simp only [shapeCast_self]
  unfold combine
  rw [← hb]
  rfl

theorem zero_offsets : (![0, 0] : Fin 2 → Nat) = fun _ => 0 := funext fun a => by fin_cases a <;> rfl

/-- The function the result array ends holding: at each index, the body's value from the arrays' entries there. -/
abbrev arrayValue (A : S50000x128.Idx → EReal) (B : S1x128.Idx → EReal) (T : S50000x128.Idx → EReal) :
    S50000x128.Idx → EReal :=
  fun i => combine (A i) (B (ix2 (0 : Fin 1) ⟨(i 1).val, (i 1).isLt⟩)) (T i)

/-- The index maps over the ten grid points: the three row-block windows are on block (t, 0), the bias on (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value at an entry j of a block whose entries are the arrays' entries at i. -/
theorem point_value (x0 x11 : Vec Ideal S5000x128 .f32) (x2 : Vec Ideal S1x128 .f32)
    (A T : S50000x128.Idx → EReal) (B : S1x128.Idx → EReal) (j : S5000x128.Idx) (i : S50000x128.Idx)
    (h0 : x0 j = A i) (h11 : x11 j = T i) (h2 : ∀ q : Fin 128, x2 (ix2 (0 : Fin 1) q) = B (ix2 (0 : Fin 1) q))
    (hi : (i 1).val = (j 1).val) :
    k1_pay1 (F := Ideal) x0 x2 x11 j = arrayValue A B T i := by
  obtain ⟨p, q, rfl⟩ : ∃ (p : Fin 5000) (q : Fin 128), j = ix2 p q := ⟨j 0, j 1, eq_ix2 j⟩
  rw [pay1_apply, h0, h11, h2]
  show combine (A i) (B (ix2 (0 : Fin 1) q)) (T i) = combine (A i) (B (ix2 (0 : Fin 1) ⟨(i 1).val, (i 1).isLt⟩)) (T i)
  have hq : (⟨(i 1).val, (i 1).isLt⟩ : Fin 128) = q := Fin.ext hi
  rw [hq]

variable (V : (c : Dev nD) → (b : Ref sig .tc) → Buf (Elt Ideal) ((c : Thread nD τ).loc b))

/-- What point t writes back is block t of the array function. -/
theorem flushed_eq (c : Dev nD) (t : Fin cfg1.N) :
    (dat1 (F := Ideal) V c).flushed 3 t
      = ((cfg1.win 3).blk t).view.read (Elt Ideal) (arrayValue (V c main_v49) (V c main_v3) (V c main_v4_1)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  obtain ⟨e00, e01, e10, e11, e20, e21, e30, e31⟩ := index_facts t
  funext j
  show k1_pay1 (F := Ideal) (iblk1 V c 0 t) (iblk1 V c 2 t) (iblk1 V c 1 t) j
    = arrayValue (V c main_v49) (V c main_v3) (V c main_v4_1) (((cfg1.win 3).blk t).view.emb j)
  refine point_value _ _ _ _ _ _ j _ ?_ ?_ ?_ ?_
  · show V c main_v49 (((cfg1.win 0).blk t).view.emb j) = V c main_v49 (((cfg1.win 3).blk t).view.emb j)
    refine congrArg (V c main_v49) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c main_v4_1 (((cfg1.win 1).blk t).view.emb j) = V c main_v4_1 (((cfg1.win 3).blk t).view.emb j)
    refine congrArg (V c main_v4_1) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  · intro q
    show V c main_v3 (((cfg1.win 2).blk t).view.emb (ix2 (0 : Fin 1) q)) = V c main_v3 (ix2 (0 : Fin 1) q)
    refine congrArg (V c main_v3) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show win1_3.index t (1 : Fin 2) * 128 + 1 * (j 1).val = (j 1).val
    omega

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- Row r of the array is in the block of the point r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  have ht : t.val = (i 0).val / 5000 := rfl
  obtain ⟨e00, e01, e10, e11, e20, e21, e30, e31⟩ := index_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array at (a, q), from the arrays as the region finds them. -/
theorem final3 (c : Dev nD) (a : Fin 50000) (q : Fin 128) :
    ((dat1 (F := Ideal) V c).arrAt 3 cfg1.N : S50000x128.Idx → EReal) (ix2 a q)
      = combine ((V c main_v49 : S50000x128.Idx → EReal) (ix2 a q))
          ((V c main_v3 : S1x128.Idx → EReal) (ix2 (0 : Fin 1) q))
          ((V c main_v4_1 : S50000x128.Idx → EReal) (ix2 a q)) := by
  have h := (dat1 (F := Ideal) V c).arrAt_eq_of_cover 3 (arrayValue (V c main_v49) (V c main_v3) (V c main_v4_1))
    (fun t _ => flushed_eq V c t) covered
  exact congrFun h (ix2 a q)

end Cert.Gcn.Region1

end
-- ==== Proof.Ref.lean ====
/-
  The reference program read entry by entry: its normalised input, its two dense layers, and its last step, in the
  terms of the specification.
-/
import proofs.«119433_j3435973837210_1_alg».proof.Proof.Gen.ReferenceIdeal.Read
import proofs.«119433_j3435973837210_1_alg».proof.Proof.Spec
import Idealize.ShloMosaic.Lib.ValueIdx
import Idealize.ShloMosaic.PureOps.Ideal.Laws

noncomputable section

namespace Cert.Gcn.Ref

open Idealize.ShloMosaic Idealize.ShloMosaic.ValueIdx Cert.ReferenceIdeal Cert.ReferenceIdeal.Read Cert.Gcn
open scoped BigOperators

/-! ### Index equations: the reference's composed index functions at an entry are coordinate indices -/

private theorem idx4_eq (a : Fin 50000) (k : Fin 128) : idx_main_v4 (ix2 a k) = ix2 a (0 : Fin 1) :=
  funext fun d => Fin.ext (by match d with | ⟨0, _⟩ => rfl | ⟨1, _⟩ => rfl)

private theorem idx11_eq (a : Fin 50000) (k : Fin 128) : idx_main_v11 (ix2 a k) = ix2 a (0 : Fin 1) :=
  funext fun d => Fin.ext (by match d with | ⟨0, _⟩ => rfl | ⟨1, _⟩ => rfl)

private theorem idx16_eq (a : Fin 50000) (k : Fin 128) : idx_main_v16 (ix2 a k) = ix2 a (0 : Fin 1) :=
  funext fun d => Fin.ext (by match d with | ⟨0, _⟩ => rfl | ⟨1, _⟩ => rfl)

private theorem idx0_eq (a : Fin 50000) (k : Fin 128) : idx_main_v0 (idx_main_v1 (ix2 a (0 : Fin 1))) k = ix2 a k :=
  funext fun d => Fin.ext (by match d with | ⟨0, _⟩ => rfl | ⟨1, _⟩ => rfl)

private theorem idx7_eq (a : Fin 50000) (k : Fin 128) : idx_main_v7 (idx_main_v8 (ix2 a (0 : Fin 1))) k = ix2 a k :=
  funext fun d => Fin.ext (by match d with | ⟨0, _⟩ => rfl | ⟨1, _⟩ => rfl)

private theorem idx19_eq (a : Fin 50000) (k : Fin 128) : idx_main_v18 (idx_main_v19 (ix2 a k)) = ix1 k :=
  funext fun d => Fin.ext (by match d with | ⟨0, _⟩ => rfl)

private theorem idx22_eq (a : Fin 50000) (k : Fin 128) : idx_main_v21 (idx_main_v22 (ix2 a k)) = ix1 k :=
  funext fun d => Fin.ext (by match d with | ⟨0, _⟩ => rfl)

private theorem idx71_eq (a : Fin 50000) (k : Fin 128) : idx_main_v70 (idx_main_v71 (ix2 a k)) = ix1 k :=
  funext fun d => Fin.ext (by match d with | ⟨0, _⟩ => rfl)

private theorem idx80_eq (a : Fin 50000) (k : Fin 128) : idx_main_v79 (idx_main_v80 (ix2 a k)) = ix1 k :=
  funext fun d => Fin.ext (by match d with | ⟨0, _⟩ => rfl)

private theorem lidx24_eq (a : Fin 50000) (q k : Fin 128) : lidx_main_v24 (ix2 a q) k = ix2 a k :=
  funext fun d => Fin.ext (by match d with | ⟨0, _⟩ => rfl | ⟨1, _⟩ => rfl)

private theorem ridx24_eq (a : Fin 50000) (q k : Fin 128) : ridx_main_v24 (ix2 a q) k = ix2 k q :=
  funext fun d => Fin.ext (by match d with | ⟨0, _⟩ => rfl | ⟨1, _⟩ => rfl)

private theorem lidx78_eq (a : Fin 50000) (q k : Fin 128) : lidx_main_v78 (ix2 a q) k = ix2 a k :=
  funext fun d => Fin.ext (by match d with | ⟨0, _⟩ => rfl | ⟨1, _⟩ => rfl)

private theorem ridx78_eq (a : Fin 50000) (q k : Fin 128) : ridx_main_v78 (ix2 a q) k = ix2 k q :=
  funext fun d => Fin.ext (by match d with | ⟨0, _⟩ => rfl | ⟨1, _⟩ => rfl)

/-! ### The row statistics -/

/-- The reference's row mean at row a is the specification's mean of that row. -/
private theorem mean_apply (x0 : FVec Ideal S50000x128 .f32) (a : Fin 50000) :
    val_main_v3 (F := Ideal) x0 (ix2 a (0 : Fin 1)) = mean (fun c => x0 (ix2 a c)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  exact congrArg (Ideal.div · _) (Finset.sum_congr rfl fun k _ => congrArg x0 (idx0_eq a k))

/-- The reference's row variance at row a is the specification's variance of that row. -/
private theorem var_apply (x0 : FVec Ideal S50000x128 .f32) (a : Fin 50000) :
    val_main_v10 (F := Ideal) x0 (ix2 a (0 : Fin 1)) = var (fun c => x0 (ix2 a c)) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  refine congrArg (Ideal.div · _) (Finset.sum_congr rfl fun k _ => ?_)
  rw [idx7_eq a k, val_main_v6_apply, val_main_v5_apply, val_main_v4_apply, idx4_eq a k, mean_apply]
  rfl

/-- The normalised input at (a, k). -/
theorem xn_apply (x0 : FVec Ideal S50000x128 .f32) (x3 x4 : FVec Ideal S128 .f32) (a : Fin 50000) (k : Fin 128) :
    val_main_v23 (F := Ideal) x0 x3 x4 (ix2 a k)
      = lnRow (fun c => x0 (ix2 a c)) (fun c => x3 (ix1 c)) (fun c => x4 (ix1 c)) k := by
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply,
    idx11_eq a k, idx16_eq a k, idx19_eq a k, idx22_eq a k, mean_apply, var_apply]
  rfl

/-- The first dense layer at (a, q). -/
theorem h_apply (x0 : FVec Ideal S50000x128 .f32) (x3 x4 : FVec Ideal S128 .f32) (x5 : FVec Ideal S128x128 .f32)
    (a : Fin 50000) (q : Fin 128) :
    val_main_v24 (F := Ideal) x0 x3 x4 x5 (ix2 a q)
      = dense (fun c => x0 (ix2 a c)) (fun c => x3 (ix1 c)) (fun c => x4 (ix1 c)) (fun k => x5 (ix2 k q)) := by
  rw [val_main_v24_apply]
  refine Finset.sum_congr rfl fun k _ => ?_
  rw [lidx24_eq a q k, ridx24_eq a q k, xn_apply]

/-- The second dense layer with its bias at (a, q). -/
theorem xt_apply (x0 : FVec Ideal S50000x128 .f32) (x3 x4 : FVec Ideal S128 .f32) (x7 : FVec Ideal S128x128 .f32)
    (x8 : FVec Ideal S128 .f32) (a : Fin 50000) (q : Fin 128) :
    val_main_v81 (F := Ideal) x0 x3 x4 x7 x8 (ix2 a q)
      = dense (fun c => x0 (ix2 a c)) (fun c => x3 (ix1 c)) (fun c => x4 (ix1 c)) (fun k => x7 (ix2 k q)) + x8 (ix1 q) := by
  rw [val_main_v81_apply, val_main_v78_apply, val_main_v80_apply, val_main_v79_apply, idx80_eq a q]
  refine congrArg (· + _) (Finset.sum_congr rfl fun k _ => ?_)
  rw [lidx78_eq a q k, ridx78_eq a q k, xn_apply]

/-- The result at (a, q): the last step applied to the aggregate, the bias and the second dense layer. -/
theorem out_apply (x0 : FVec Ideal S50000x128 .f32) (x1 : IVec S2x800000 32) (x2 : FVec Ideal S800000 .f32)
    (x3 x4 : FVec Ideal S128 .f32) (x5 : FVec Ideal S128x128 .f32) (x6 : FVec Ideal S128 .f32)
    (x7 : FVec Ideal S128x128 .f32) (x8 : FVec Ideal S128 .f32) (a : Fin 50000) (q : Fin 128) :
    val_main_v82 (F := Ideal) x0 x1 x2 x3 x4 x5 x6 x7 x8 (ix2 a q)
      = combine (val_main_v69 (F := Ideal) x0 x1 x2 x3 x4 x5 (ix2 a q)) (x6 (ix1 q))
          (val_main_v81 (F := Ideal) x0 x3 x4 x7 x8 (ix2 a q)) := by
  rw [val_main_v82_apply, val_main_v77_apply, val_main_v74_apply, val_main_v76_apply, val_main_v72_apply,
    val_main_v73_apply, val_main_v75_apply, val_main_v71_apply, val_main_v70_apply, val_main_cst_14_apply,
    val_main_cst_15_apply, idx71_eq a q]
  rfl

end Cert.Gcn.Ref

end
-- ==== Proof.Bridge.lean ====
/-
  The idealized kernel program's result is the reference's function of the argument arrays.

  Entry (a, q) of the first region's two result arrays is the specification's dense layer of row a — which is also
  entry (a, q) of the reference's two dense layers, so the arrays are equal. The aggregation is the same function of the
  first layer in both programs, so the aggregates are equal. The second region's result at (a, q) is the last step
  applied to the aggregate, the bias and the second layer at that entry, as the reference's result is.
-/
import proofs.«119433_j3435973837210_1_alg».proof.Proof.KRun
import proofs.«119433_j3435973837210_1_alg».proof.Proof.Host
import proofs.«119433_j3435973837210_1_alg».proof.Proof.Region0
import proofs.«119433_j3435973837210_1_alg».proof.Proof.Region1
import proofs.«119433_j3435973837210_1_alg».proof.Proof.Ref

noncomputable section

namespace Cert.Gcn.Bridge

open Idealize.ShloMosaic Idealize.ShloMosaic.TcCoe Idealize.ShloMosaic.ValueIdx Idealize.SL.Sem
open Cert.KernelIdeal Cert.KernelIdeal.Gen Cert.Gcn

variable (m : (ℓ : Loc nD τ sig) → Buf (Elt Ideal) ℓ) (ρ : Dev nD → PrngReg)

/-- The first region's first result array is the reference's first dense layer of the argument arrays. -/
theorem layer_h (c : Dev nD) :
    ((dat0 (F := Ideal) (V1 m ρ) c).arrAt 6 cfg0.N : S50000x128.Idx → EReal)
      = Cert.ReferenceIdeal.Read.val_main_v24 (F := Ideal) (m ((c : Thread nD τ).loc main_arg0)) (m ((c : Thread nD τ).loc main_arg3))
          (m ((c : Thread nD τ).loc main_arg4)) (m ((c : Thread nD τ).loc main_arg5)) := by
  funext i
  obtain ⟨a, q, rfl⟩ : ∃ (a : Fin 50000) (q : Fin 128), i = ix2 a q := ⟨i 0, i 1, eq_ix2 i⟩
  refine (Region0.final6 (V1 m ρ) c a q).trans ((Eq.trans ?_ (Ref.h_apply _ _ _ _ a q).symm))
  refine congr (congr (congr (congrArg dense (funext fun k => ?_)) (funext fun k => ?_)) (funext fun k => ?_)) (funext fun k => ?_)
  · exact congrFun (Host.V1_arg0 m ρ c) _
  · exact Host.V1_v0 m ρ c k
  · exact Host.V1_v1 m ρ c k
  · exact congrFun (Host.V1_arg5 m ρ c) _

/-- The first region's second result array at (a, q) is the reference's second dense layer there. -/
theorem layer_t (c : Dev nD) (a : Fin 50000) (q : Fin 128) :
    ((dat0 (F := Ideal) (V1 m ρ) c).arrAt 7 cfg0.N : S50000x128.Idx → EReal) (ix2 a q)
      = Cert.ReferenceIdeal.Read.val_main_v81 (F := Ideal) (m ((c : Thread nD τ).loc main_arg0)) (m ((c : Thread nD τ).loc main_arg3))
          (m ((c : Thread nD τ).loc main_arg4)) (m ((c : Thread nD τ).loc main_arg7)) (m ((c : Thread nD τ).loc main_arg8)) (ix2 a q) := by
  refine (Region0.final7 (V1 m ρ) c a q).trans ((Eq.trans ?_ (Ref.xt_apply _ _ _ _ _ a q).symm))
  refine congrArg₂ (· + ·) ?_ (Host.V1_v2 m ρ c q)
  refine congr (congr (congr (congrArg dense (funext fun k => ?_)) (funext fun k => ?_)) (funext fun k => ?_)) (funext fun k => ?_)
  · exact congrFun (Host.V1_arg0 m ρ c) _
  · exact Host.V1_v0 m ρ c k
  · exact Host.V1_v1 m ρ c k
  · exact congrFun (Host.V1_arg7 m ρ c) _

/-- The result buffer's final contents are the reference's result function of the argument arrays. -/
theorem result (c : Dev nD) :
    (W6 m ρ c (Proc.devRef .tc main_v50) : S50000x128.Idx → EReal)
      = Cert.ReferenceIdeal.Read.val_main_v82 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [Run.result_eq]
  funext i
  obtain ⟨a, q, rfl⟩ : ∃ (a : Fin 50000) (q : Fin 128), i = ix2 a q := ⟨i 0, i 1, eq_ix2 i⟩
  refine (Region1.final3 (V5 m ρ) c a q).trans ((Eq.trans ?_ (Ref.out_apply _ _ _ _ _ _ _ _ _ a q).symm))
  refine congr (congr (congrArg combine ?_) (Host.V5_v3 m ρ c q)) ?_
  · refine congrFun ?_ (ix2 a q)
    rw [Host.V5_v49, layer_h, Host.ref_agg]
  · rw [Host.V5_v4_1]
    exact layer_t m ρ c a q

end Cert.Gcn.Bridge

end
-- ==== Proof.lean ====
/-
  The certificate of a graph-convolution layer: a layer normalisation and two dense layers in a first kernel tiled over
  blocks of 5000 rows, the graph aggregation as host operations, and a leaky rectifier with a residual sum in a
  second kernel, against the same computation written with whole-array operations.

  At the ideal values the two programs compute the same function of the argument arrays entry by entry: the row
  statistics, the normalised rows and both matrix products are the same sums (a block of rows of a product depends
  only on those rows), the aggregation is the same chain of operations applied to equal arrays, and the last step is
  the same expression of equal entries. No algebraic law is needed beyond re-indexing the sums, so the precondition
  is never opened. The three frames are the generated frame proofs (the reference's is its generated run with the
  result dropped); the idealization rewrote nothing, so the preservation claim is trivial.
-/
import proofs.«119433_j3435973837210_1_alg».proof.Defs
import proofs.«119433_j3435973837210_1_alg».proof.Proof.Gen.Kernel
import proofs.«119433_j3435973837210_1_alg».proof.Proof.Gen.Kernel.Skeleton
import proofs.«119433_j3435973837210_1_alg».proof.Proof.Gen.Kernel.Launch
import proofs.«119433_j3435973837210_1_alg».proof.Proof.Gen.Kernel.Points
import proofs.«119433_j3435973837210_1_alg».proof.Proof.Gen.Kernel.Frame
import proofs.«119433_j3435973837210_1_alg».proof.Proof.Gen.KernelIdeal
import proofs.«119433_j3435973837210_1_alg».proof.Proof.Gen.KernelIdeal.Skeleton
import proofs.«119433_j3435973837210_1_alg».proof.Proof.Gen.KernelIdeal.Launch
import proofs.«119433_j3435973837210_1_alg».proof.Proof.Gen.KernelIdeal.Points
import proofs.«119433_j3435973837210_1_alg».proof.Proof.Gen.KernelIdeal.Frame
import proofs.«119433_j3435973837210_1_alg».proof.Proof.Gen.ReferenceIdeal
import proofs.«119433_j3435973837210_1_alg».proof.Proof.Gen.Pre_finite_inputs
import proofs.«119433_j3435973837210_1_alg».proof.Proof.Gen.ReferenceIdeal.Run
import proofs.«119433_j3435973837210_1_alg».proof.Proof.Gen.ReferenceIdeal.Read
import proofs.«119433_j3435973837210_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the same result array: the kernel
    program's result buffer ends at the reference's function of its own arguments, which are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v50), ?_, ?_⟩
  · refine (θ_run Cert.KernelIdeal.defs _ _).mono (fun r h c => ?_) (Cert.Gcn.Run.run_all (F := Ideal) m ρ)
    exact ⟨h c _ (Cert.KernelIdeal.Gen.mem_uc Cert.KernelIdeal.main_v50 (by decide)),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v82_eq, e0, e1, e2, e3, e4, e5, e6, e7, e8]
    exact (Cert.Gcn.Bridge.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
